-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S2x1600000 : Shape := ⟨2, ![2, 1600000]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : FVec F S128x64 .f32) (main_arg2 : IVec S2x1600000 32) (main_arg3 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S1600000 .f32 := Host.absf main_arg3
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x128 : Shape := ⟨2, ![100000, 128]⟩
abbrev S128x64 : Shape := ⟨2, ![128, 64]⟩
abbrev S2x1600000 : Shape := ⟨2, ![2, 1600000]⟩
abbrev S1600000 : Shape := ⟨1, ![1600000]⟩
abbrev S100000x64 : Shape := ⟨2, ![100000, 64]⟩
abbrev S10000x128 : Shape := ⟨2, ![10000, 128]⟩
abbrev S10000x64 : Shape := ⟨2, ![10000, 64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 30
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S2x1600000, .i32⟩
  | .hbm, ⟨3, _⟩ => ⟨S1600000, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000x64, .bf16⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .bf16⟩
  | .hbm, ⟨19, _⟩ => ⟨S1600000x64, .f32⟩
  | .hbm, ⟨20, _⟩ => ⟨S1600000x1, .f32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S100000x64, .f32⟩
  | .hbm, ⟨29, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S2x1600000 : Shape := ⟨2, ![2, 1600000]⟩
abbrev S1600000 : Shape := ⟨1, ![1600000]⟩
abbrev S100000x64 : Shape := ⟨2, ![100000, 64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 28
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S2x1600000, .i32⟩
  | .hbm, ⟨3, _⟩ => ⟨S1600000, .f32⟩
  | .hbm, ⟨4, _⟩ => ⟨S100000x64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S1600000x1, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Product.lean ====
/-
  The dense product both programs gather their messages from.

  For a feature matrix X (100000 rows of 128 entries) and a weight matrix W (128 rows of 64 entries), entry (r, c) of
  the product is the sum over the 128 inner positions k of X(r, k) · W(k, c), taken in the extended reals. Addition
  there is commutative and associative, so the sum depends on neither the order nor the grouping of its terms: a
  product computed a block of rows at a time and a product computed whole have the same entries.
-/
import Idealize.ShloMosaic.PureOps.Ideal
import Idealize.ShloMosaic.Lib.ValueIdx

noncomputable section

namespace Cert.Product

open Idealize.ShloMosaic Idealize.ShloMosaic.ValueIdx

/-- Entry (r, c) of X · W: the sum over k of X(r, k) · W(k, c). -/
def support (X : (⟨2, ![100000, 128]⟩ : Shape).Idx → EReal) (W : (⟨2, ![128, 64]⟩ : Shape).Idx → EReal) :
    (⟨2, ![100000, 64]⟩ : Shape).Idx → EReal :=
  fun i => ∑ k : Fin 128, X (ix2 (n0 := 100000) (n1 := 128) ⟨(i 0).val, idx2_lt0 i⟩ k) * W (ix2 (n0 := 128) (n1 := 64) k ⟨(i 1).val, idx2_lt1 i⟩)

/-- The same entry with the row and the column given as numbers below the extents. -/
theorem support_apply (X : (⟨2, ![100000, 128]⟩ : Shape).Idx → EReal) (W : (⟨2, ![128, 64]⟩ : Shape).Idx → EReal)
    (r : Fin 100000) (c : Fin 64) :
    support X W (ix2 r c) = ∑ k : Fin 128, X (ix2 r k) * W (ix2 k c) := rfl

end Cert.Product

end
-- ==== Proof.ReferenceProduct.lean ====
/-
  The reference's whole-matrix product is the dense product, entry by entry: the host's contraction of the feature
  matrix with the weight matrix over the one inner axis of 128 is the sum over k of X(r, k) · W(k, c).
-/
import proofs.«133337_j8658654069051_2_alg».proof.Proof.Gen.ReferenceIdeal.Read
import proofs.«133337_j8658654069051_2_alg».proof.Proof.Product

noncomputable section

namespace Cert.ReferenceIdeal.Product

open Cert.ReferenceIdeal Cert.ReferenceIdeal.Gen Idealize.ShloMosaic Idealize.ShloMosaic.ValueIdx

/-- The host's product of the two argument arrays is `Cert.Product.support` of them. -/
theorem dot_eq_support (X : FVec Ideal S100000x128 .f32) (W : FVec Ideal S128x64 .f32) :
    Host.dotGeneral dot_S100000x128_S128x64_S100000x64_1_0_0_1_n_n none X W = Cert.Product.support X W := by
  funext i
  refine (Cert.ReferenceIdeal.Read.val_main_v0_apply X W i).trans ?_
  unfold Cert.Product.support
  refine Finset.sum_congr rfl fun k _ => ?_
  have el : Cert.ReferenceIdeal.Read.lidx_main_v0 i k = ix2 (n0 := 100000) (n1 := 128) ⟨(i 0).val, idx2_lt0 i⟩ k :=
    funext fun a => Fin.ext (by match a with | ⟨0, _⟩ => rfl | ⟨1, _⟩ => rfl)
  have er : Cert.ReferenceIdeal.Read.ridx_main_v0 i k = ix2 (n0 := 128) (n1 := 64) k ⟨(i 1).val, idx2_lt1 i⟩ :=
    funext fun a => Fin.ext (by match a with | ⟨0, _⟩ => rfl | ⟨1, _⟩ => rfl)
  rw [el, er]

end Cert.ReferenceIdeal.Product

end
-- ==== Proof.BlockProduct.lean ====
/-
  What the kernel body stores at one grid point: the product of its block of 10000 feature rows with the whole
  weight matrix.

  The body loads a [10000, 128] block of features and the [128, 64] weights, changes both to the narrower float format
  (no change of value in the extended reals), multiplies them on the matrix unit into a zero accumulator, and stores
  the [10000, 64] result. Entry (p, q) of the stored block is therefore the sum over k of block(p, k) · weights(k, q).
-/
import proofs.«133337_j8658654069051_2_alg».proof.Proof.Gen.KernelIdeal.Skeleton
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx

/-- The matrix unit's contraction: rows of the left block against columns of the right one, over one inner axis of 128. -/
abbrev D : DotDims S10000x128 S128x64 S10000x64 := dot_S10000x128_S128x64_S10000x64_1_0_0_1_n_n

/-- The left operand's row coordinate is the output's row. -/
theorem lhs_row (i : S10000x64.Idx) (q : D.contr.Idx) : (D.lhsIdx i q 0).val = (i 0).val := by
  unfold DotDims.lhsIdx
  rw [dif_neg (show ¬(0 : Fin S10000x128.rank) ∈ D.lhsBatch by decide), dif_pos (show (0 : Fin S10000x128.rank) ∈ D.lhsNonContracting by decide)]
  rfl

/-- The right operand's column coordinate is the output's column. -/
theorem rhs_col (i : S10000x64.Idx) (q : D.contr.Idx) : (D.rhsIdx i q 1).val = (i 1).val := by
  unfold DotDims.rhsIdx
  rw [dif_neg (show ¬(1 : Fin S128x64.rank) ∈ D.rhsBatch by decide), dif_pos (show (1 : Fin S128x64.rank) ∈ D.rhsNonContracting by decide)]
  rfl

/-- Entry (p, q) of the stored block: the sum over k of block(p, k) · weights(k, q). -/
theorem pay_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  simp only [matmul]
  refine (Ideal.matmul_constant_zero_apply D none _ _ (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 128 rfl rfl).symm k) = ix2 k q := funext fun a => Fin.ext (by
    match a with
    | ⟨0, _⟩ => exact (D.rhsIdx_val_of_single rfl _ _).trans hk
    | ⟨1, _⟩ => exact rhs_col _ _)
  rw [el, er]
  rfl

end Cert.KernelIdeal.BlockProduct

end
-- ==== Proof.ArrayProduct.lean ====
/-
  The array the kernel's region leaves: the dense product of the two argument arrays.

  The grid has ten points. At point t the region fetches rows 10000·t … 10000·t + 9999 of the features and the whole
  weight matrix, and writes the body's [10000, 64] result back as rows 10000·t … 10000·t + 9999 of the output. By
  the body's arithmetic, row p of that block is row 10000·t + p of the product; the ten row blocks tile the
  100000 rows (row r lies in block r / 10000), so after the last point the whole output array is the product.
-/
import proofs.«133337_j8658654069051_2_alg».proof.Proof.Gen.KernelIdeal.Frame
import proofs.«133337_j8658654069051_2_alg».proof.Proof.BlockProduct
import proofs.«133337_j8658654069051_2_alg».proof.Proof.Product
import Idealize.ShloMosaic.Lib.Pipeline.Value

noncomputable section

namespace Cert.KernelIdeal.ArrayProduct

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The block indices over the grid: at point t the features' and the output's blocks are block t along the rows,
    the weights' block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the features' block at point t is row 10000·t + p of the feature array. -/
theorem feat_block (c : Dev nD) (t : Fin cfg0.N) (p : Fin 10000) (k : Fin 128) (r : Fin 100000)
    (hr : r.val = t.val * 10000 + p.val) :
    (iblk m c 0 t : Vec Ideal S10000x128 .f32) (ix2 p k) = (V m c main_arg0 : S100000x128.Idx → EReal) (ix2 r k) := by
  obtain ⟨e0, e1, -⟩ := idx_facts t
  unfold iblk
  rw [View.read_apply]
  show V m c main_arg0 _ = V m c main_arg0 _
  refine congrArg _ (funext fun a => Fin.ext ?_)
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The weights' block at every point is the weight array. -/
theorem weight_block (c : Dev nD) (t : Fin cfg0.N) (k : Fin 128) (q : Fin 64) :
    (iblk m c 1 t : Vec Ideal S128x64 .f32) (ix2 k q) = (V m c main_arg1 : S128x64.Idx → EReal) (ix2 k q) := by
  obtain ⟨-, -, e2, e3, -⟩ := idx_facts t
  unfold iblk
  rw [View.read_apply]
  show V m c main_arg1 _ = V m c main_arg1 _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- Entry y of what the body stores at point t is the product's entry at row 10000·t + (row of y), same column. -/
theorem block_entry (c : Dev nD) (t : Fin cfg0.N) (y : S10000x64.Idx) (i : S100000x64.Idx)
    (h0 : (i 0).val = t.val * 10000 + (y 0).val) (h1 : (i 1).val = (y 1).val) :
    k0_pay1 (F := Ideal) (iblk m c 0 t) (iblk m c 1 t) y
      = Cert.Product.support (V m c main_arg0) (V m c main_arg1) i := by
  obtain ⟨p, q, rfl⟩ : ∃ (p : Fin 10000) (q : Fin 64), y = ix2 p q := ⟨y 0, y 1, eq_ix2 y⟩
  obtain ⟨r, s, rfl⟩ : ∃ (r : Fin 100000) (s : Fin 64), i = ix2 r s := ⟨i 0, i 1, eq_ix2 i⟩
  have hr : r.val = t.val * 10000 + p.val := h0
  obtain rfl : s = q := Fin.ext h1
  refine (BlockProduct.pay_apply (iblk m c 0 t) (iblk m c 1 t) p s).trans ?_
  refine Eq.trans ?_ (Cert.Product.support_apply (V m c main_arg0) (V m c main_arg1) r s).symm
  refine Finset.sum_congr rfl fun k _ => ?_
  rw [feat_block m c t p k r hr, weight_block m c t k s]

/-- What point t writes back is block t of the product of the arrays as the region finds them. -/
theorem flushed_eq (c : Dev nD) (t : Fin cfg0.N) :
    (dats m 0 c).flushed 2 t
      = ((cfg0.win 2).blk t).view.read (Elt Ideal) (Cert.Product.support (V m c main_arg0) (V m c main_arg1)) := by
  show (cfg0.win 2).cut (grid0.coords t) ((dats m 0 c).after 2 t) = _
  rw [after0_2]
  unfold out0_2
  rw [View.canon_unit_zero hz]
  simp only [View.ld_unit_zero (S := S10000x128) hz, View.ld_unit_zero (S := S128x64) hz]
  obtain ⟨-, -, -, -, e4, e5⟩ := idx_facts t
  funext j
  show k0_pay1 (F := Ideal) (iblk m c 0 t) (iblk m c 1 t) j
    = Cert.Product.support (V m c main_arg0) (V m c main_arg1) (((cfg0.win 2).blk t).view.emb j)
  refine block_entry m c t j _ ?_ ?_
  · show win0_2.index t (0 : Fin 2) * 10000 + 1 * (j 0).val = t.val * 10000 + (j 0).val
    rw [e4]; omega
  · show win0_2.index t (1 : Fin 2) * 64 + 1 * (j 1).val = (j 1).val
    rw [e5]; omega

/-- An index of the output array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v0).slice (win0_2.rect t)).set ↔ _
  rw [View.set_slice_whole, Rect.mem_set_unit]
  exact Iff.rfl

/-- Every index of the output array lies in the block some point writes back: row r in block r / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  have ht : t.val = (i 0).val / 10000 := rfl
  obtain ⟨-, -, -, -, e4, e5⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 64 ≤ (i 1).val ∧ (i 1).val < win0_2.index t (1 : Fin 2) * 64 + 64
    rw [e5]; omega

/-- After the last point the output array is the product of the two argument arrays. -/
theorem final (c : Dev nD) :
    (dats m 0 c).arrAt 2 cfg0.N
      = Cert.Product.support (m ((c : Thread nD τ).loc main_arg0)) (m ((c : Thread nD τ).loc main_arg1)) :=
  ((dats m 0 c).arrAt_eq_of_cover 2 (Cert.Product.support (V m c main_arg0) (V m c main_arg1))
    (fun t _ => flushed_eq m c t) cover).trans (by rw [V_main_arg0, V_main_arg1])

end Cert.KernelIdeal.ArrayProduct

end
-- ==== Proof.Aggregate.lean ====
/-
  What both programs do with the dense product: the weighted aggregation over the edges, then the rectifier.

  The edge list E has two rows of 1600000 node numbers: row 0 holds each edge's destination, row 1 its source. A
  negative source number counts from the end of the table (100000 is added to it). Edge e's message is row source(e)
  of the product S, every entry scaled by the edge's weight w(e). Node i collects, onto zero, the sum of the messages of
  the edges whose destination is i; the result is the larger of that sum and zero, entry by entry.

  The reference applies these operations to its own product; the kernel's program applies the same operations to the
  array its region leaves, except that it passes the product through the narrower float format before picking rows and
  back afterwards — which changes no value in the extended reals. So both are ONE function of (S, E, w); it is never
  opened here: the two programs' results are equal because the products going in are.
-/
import proofs.«133337_j8658654069051_2_alg».proof.Proof.Gen.KernelIdeal
import proofs.«133337_j8658654069051_2_alg».proof.Proof.Gen.ReferenceIdeal
import Idealize.ShloMosaic.PureOps.Ideal

noncomputable section

namespace Cert.ReferenceIdeal.Aggregate

open Cert.ReferenceIdeal Cert.ReferenceIdeal.Gen Idealize.ShloMosaic

/-- Each edge's destination node: row 0 of the edge list. -/
def dst (E : IVec S2x1600000 32) : IVec S1600000 32 :=
  shapeCast _ (extractStridedSlice S1x1600000 ![0, 0] E slices_S2x1600000_S1x1600000_0_0) shapeCasts_S1x1600000_S1600000

/-- Each edge's source node: row 1 of the edge list. -/
def src (E : IVec S2x1600000 32) : IVec S1600000 32 :=
  shapeCast _ (extractStridedSlice S1x1600000 ![1, 0] E slices_S2x1600000_S1x1600000_1_0) shapeCasts_S1x1600000_S1600000

/-- The source with a negative number read from the end of the table: 100000 added to it. -/
def srcFromEnd (E : IVec S2x1600000 32) : IVec S1600000 32 :=
  select (cmpi .slt (src E) (broadcastInDim S1600000 ![] bcast_S_S1600000 (constantI S_ 32 0#32)))
    (addi (src E) (broadcastInDim S1600000 ![] bcast_S_S1600000 (constantI S_ 32 100000#32))) (src E)

/-- The messages: row source(e) of S, scaled by w(e). -/
def messages (S : FVec Ideal S100000x64 .f32) (E : IVec S2x1600000 32)
    (w : FVec Ideal S1600000 .f32) : FVec Ideal S1600000x64 .f32 :=
  mulf (Host.gather gather_S100000x64_S1600000x1_S1600000x64_1_0_n_n_0_1_164 S
      (broadcastInDim S1600000x1 ![0] bcast_S1600000_S1600000x1_0 (srcFromEnd E)))
    (broadcastInDim S1600000x64 ![0, 1] bcast_S1600000x1_S1600000x64_0_1 (broadcastInDim S1600000x1 ![0] bcast_S1600000_S1600000x1_0 w))

/-- Each node's sum of incoming messages onto zero, then the larger of it and zero. -/
def aggregate (S : FVec Ideal S100000x64 .f32) (E : IVec S2x1600000 32)
    (w : FVec Ideal S1600000 .f32) : FVec Ideal S100000x64 .f32 :=
  maximumf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (dst E))
      (messages S E w))
    (broadcastInDim S100000x64 ![] bcast_S_S100000x64 (constant (F := Ideal) S_ .f32 0x00000000#32))

end Cert.ReferenceIdeal.Aggregate

end
-- ==== Proof.KernelResult.lean ====
/-
  The kernel's program, read to its result.

  Its region leaves the dense product of the two argument arrays in the output array (ArrayProduct.lean). The host
  operations after the region read that array, the edge list and the edge weights — the region touches neither of the
  last two — and apply the weighted aggregation and the rectifier to them. Passing the product through the narrower
  float format before picking rows, and back afterwards, changes no extended real, so the result is the aggregation of
  the product (Aggregate.lean), the same function the reference applies to its own product.
-/
import proofs.«133337_j8658654069051_2_alg».proof.Proof.Gen.KernelIdeal.Frame
import proofs.«133337_j8658654069051_2_alg».proof.Proof.ArrayProduct
import proofs.«133337_j8658654069051_2_alg».proof.Proof.Aggregate
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The aggregation of the product of the feature and weight arrays, over the edge list and the edge weights. -/
abbrev result (c : Dev nD) : FVec Ideal S100000x64 .f32 :=
  Cert.ReferenceIdeal.Aggregate.aggregate
    (Cert.Product.support (m ((c : Thread nD τ).loc main_arg0)) (m ((c : Thread nD τ).loc main_arg1)))
    (m ((c : Thread nD τ).loc main_arg2)) (m ((c : Thread nD τ).loc main_arg3))

set_option maxHeartbeats 2000000 in
/-- What the host operations after the region leave in the program's result buffer. -/
theorem tail_eq (c : Dev nD) :
    Pipeline.afterTail₀ cfgs (dats m) 0 (V0 m) [hostOps1] c main_v21 = result m c := by
  unfold Pipeline.afterTail₀
  generalize hW : Pipeline.withArrays _ _ _ _ = Wv
  generalize hR : result m c = R
  simp only [hostOps1, List.flatten_cons, List.flatten_nil, List.append_nil]
  after_results
  have h0 : Wv (Proc.devRef .tc main_v0)
      = Cert.Product.support (m ((c : Thread nD τ).loc main_arg0)) (m ((c : Thread nD τ).loc main_arg1)) := by
    rw [← hW]
    exact (Pipeline.withArrays_arr spec0 launch0.win.arr_inj c _ _ 2).trans (ArrayProduct.final m c)
  have h2 : Wv (Proc.devRef .tc main_arg2) = m ((c : Thread nD τ).loc main_arg2) := by
    rw [← hW]
    exact (Pipeline.withArrays_of_ne _ c (V0 m c) _ main_arg2
      (by exact (by decide : ∀ w, Pipeline.arrRef spec0 w ≠ main_arg2))).trans (V_main_arg2 m c)
  have h3 : Wv (Proc.devRef .tc main_arg3) = m ((c : Thread nD τ).loc main_arg3) := by
    rw [← hW]
    exact (Pipeline.withArrays_of_ne _ c (V0 m c) _ main_arg3
      (by exact (by decide : ∀ w, Pipeline.arrRef spec0 w ≠ main_arg3))).trans (V_main_arg3 m c)
  rw [h0, h2, h3, ← hR]
  rfl

/-- Every weakly fair execution of the kernel's program ends with the result buffer at the aggregation of the
    product and the four argument arrays unchanged. -/
theorem run : θ_run defs (onTc (τ := τ) (main (F := Ideal))) ⟨m, fun _ => 0, ρ⟩ (fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v21 (Pipeline.mem_restRefs_of main_v21 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  A graph convolution layer: the kernel's program against its reference, over the extended reals.

  Both programs compute, for a feature matrix X, a weight matrix W, an edge list E (destination and source of each of
  1600000 edges) and edge weights w:

      out(i, c) = max( Σ over the edges e with destination i of  w(e) · (X · W)(source(e), c) ,  0 ).

  The reference forms X · W by one contraction on the host. The kernel's program forms it in a gridded region, ten
  blocks of 10000 rows, each block the matrix unit's product of that block of X with the whole of W (after a change
  to a narrower float format, which is the identity on extended reals). A sum in the extended reals does not depend
  on how it is cut or ordered, so every entry of the region's output array is the same sum over the 128 inner
  positions as the reference's entry: the two products are one array (Product.lean, BlockProduct.lean,
  ArrayProduct.lean, ReferenceProduct.lean). What follows the product — picking rows by source, scaling, summing by
  destination, the rectifier — is the same chain of operations in both programs, applied to equal arrays
  (Aggregate.lean, KernelResult.lean); it is carried as one function and never opened. No finiteness of the inputs is
  used: the equality needs only that the two sides are the same sums of the same products.

  The three runs: the kernel's program at the word level and at the extended reals by the generated frame of its one
  region; the reference by its generated run. The idealization rewrote no operation, so there is nothing to preserve
  beyond the program's own text.
-/
import proofs.«133337_j8658654069051_2_alg».proof.Defs
import proofs.«133337_j8658654069051_2_alg».proof.Proof.Gen.Kernel
import proofs.«133337_j8658654069051_2_alg».proof.Proof.Gen.Kernel.Frame
import proofs.«133337_j8658654069051_2_alg».proof.Proof.Gen.KernelIdeal
import proofs.«133337_j8658654069051_2_alg».proof.Proof.Gen.KernelIdeal.Frame
import proofs.«133337_j8658654069051_2_alg».proof.Proof.Gen.ReferenceIdeal
import proofs.«133337_j8658654069051_2_alg».proof.Proof.Gen.Pre_finite_inputs
import proofs.«133337_j8658654069051_2_alg».proof.Proof.Gen.ReferenceIdeal.Run
import proofs.«133337_j8658654069051_2_alg».proof.Proof.Gen.ReferenceIdeal.Read
import proofs.«133337_j8658654069051_2_alg».proof.Proof.ReferenceProduct
import proofs.«133337_j8658654069051_2_alg».proof.Proof.KernelResult
import Idealize.ShloMosaic.Adequacy
import Idealize.ShloMosaic.Init

noncomputable section

namespace Cert.Proof

open Idealize.ShloMosaic Idealize.SL.Sem

/-- The kernel's program at the word level runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the four arguments both programs end with the aggregation of the product X · W:
    the kernel's by its region's output array, the reference's by its host contraction. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2,
    Cert.ReferenceIdeal.Product.dot_eq_support]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
